-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 117
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x16, .f32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .i1⟩
  | .hbm, ⟨75, _⟩ => ⟨S100000, .f32⟩
  | .hbm, ⟨76, _⟩ => ⟨S_, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x16, .f32⟩
  | .hbm, ⟨108, _⟩ => ⟨S1700000x1, .f32⟩
  | .hbm, ⟨109, _⟩ => ⟨S1700000x16, .f32⟩
  | .hbm, ⟨110, _⟩ => ⟨S1700000x16, .f32⟩
  | .hbm, ⟨111, _⟩ => ⟨S_, .f32⟩
  | .hbm, ⟨112, _⟩ => ⟨S100000x16, .f32⟩
  | .hbm, ⟨113, _⟩ => ⟨S1700000x1, .i32⟩
  | .hbm, ⟨114, _⟩ => ⟨S100000x16, .f32⟩
  | .hbm, ⟨115, _⟩ => ⟨S1x16, .f32⟩
  | .hbm, ⟨116, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x16, .f32⟩
  | 5 => ⟨S16, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x16, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x16, .f32⟩
  | 112 => ⟨S1700000x1, .f32⟩
  | 113 => ⟨S1700000x16, .f32⟩
  | 114 => ⟨S1700000x16, .f32⟩
  | 115 => ⟨S_, .f32⟩
  | 116 => ⟨S100000x16, .f32⟩
  | 117 => ⟨S1700000x1, .i32⟩
  | 118 => ⟨S100000x16, .f32⟩
  | 119 => ⟨S1x16, .f32⟩
  | 120 => ⟨S100000x16, .f32⟩
  | 121 => ⟨S100000x16, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x16, .f32⟩
  | 1 => ⟨S100000x16, .f32⟩
  | 2 => ⟨S100000x16, .f32⟩
  | 3 => ⟨S_, .f32⟩
  | 4 => ⟨S100000, .f32⟩
  | 5 => ⟨S100000x1, .f32⟩
  | 6 => ⟨S100000x1, .f32⟩
  | 7 => ⟨S100000x16, .f32⟩
  | 8 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.RunValue.lean ====
/-
  The idealized kernel's run, with its result array named.

  The program is four pipelined regions among stretches of host operations. Every unscoped buffer's contents at each
  boundary between two segments is a fold through the program from the launch memory; at the return the fold is
  `W11`. The run below is the library's launch of the segment list with its last thread state read against the final
  memory at the result buffer as well as at the six argument buffers: the result buffer ends at `W11`'s value there,
  the arguments end as launched.
-/
import proofs.«176012_j64836826300768_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the six arguments end as launched. -/
theorem run_result : θ_run defs (onTc (τ := τ) (main (F := F))) ⟨m, fun _ => 0, ρ⟩ (fun r => ∀ c : Dev nD,
      r.2.mem ((c.tc : Thread nD τ).loc main_v84) = W11 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v84 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunValue

end
-- ==== Proof.Spec.lean ====
/-
  The function the reference computes, stage by stage.

  A two-layer graph convolution followed by a row-wise log-softmax. The edge list (two rows of node numbers) is
  extended by one self loop per node; a node's degree is the number of extended edges that end at it, and an edge
  from `r` to `c` weighs `deg(r)^(-1/2) · deg(c)^(-1/2)` (zero where a degree is not positive). A layer multiplies the
  node features by a weight matrix, sends every node's row along every edge scaled by the edge's weight, sums what
  arrives at each node, and adds a bias; the first layer ends with `max(·, 0)`, the second with
  `z ↦ z − max z − log Σ exp(z − max z)` along each row. Each stage below is a function of whole arrays, written with
  the reference program's own host operations, so that the reference's run ends at `gcn` by unfolding.
-/
import proofs.«176012_j64836826300768_1_alg».proof.ReferenceIdeal

noncomputable section

namespace Cert.Gcn

open Idealize.ShloMosaic Idealize.ShloMosaic.TcCoe
open Cert.ReferenceIdeal Cert.ReferenceIdeal.Facts₀ Cert.ReferenceIdeal.Facts

variable {F : FTy → Type} [FloatOps F] [Cert.ReferenceIdeal.Facts]

/-- An array of the given shape and element type, as the host operations take it. -/
abbrev Arr (F : FTy → Type) [FloatOps F] (s : Shape) (e : EltTy) : Type := (⟨s, e⟩ : BufTy).Contents (Elt F)

/-- The sources of the extended edges: row 0 of the edge list, then every node once. -/
def rowOf (e : Arr F S2x1600000 .i32) : Arr F S1700000 .i32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The targets of the extended edges: row 1 of the edge list, then every node once. -/
def colOf (e : Arr F S2x1600000 .i32) : Arr F S1700000 .i32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- Node numbers as a column of start indices, a negative number counted from the end. -/
def wrapIdx (r : Arr F S1700000 .i32) : Arr F S1700000x1 .i32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- A node's degree: one for every extended edge that ends at it. -/
def degree (col : Arr F S1700000 .i32) : Arr F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- `deg^(-1/2)` where the degree is positive, zero elsewhere. -/
def invSqrtDegree (col : Arr F S1700000 .i32) : Arr F S100000 .f32 :=
  select (cmpf .ogt (degree col) (broadcastInDim S100000 ![] bcast_S_S100000 (constant S_ .f32 0x00000000#32)))
    (Host.rsqrt (degree col))
    (broadcastInDim S100000 ![] bcast_S_S100000 (constant S_ .f32 0x00000000#32))

/-- An extended edge's weight: the product of the two ends' `deg^(-1/2)`. -/
def edgeWeight (row col : Arr F S1700000 .i32) : Arr F S1700000 .f32 :=
  mulf (Host.gather gather_S100000_S1700000x1_S1700000_n_0_n_n_0_1_1 (invSqrtDegree col) (wrapIdx row))
    (Host.gather gather_S100000_S1700000x1_S1700000_n_0_n_n_0_1_1 (invSqrtDegree col) (wrapIdx col))

/-- Aggregation of 64-wide rows: every edge carries its source's row, scaled by the edge's weight, to its target. -/
def agg64 (h : Arr F S100000x64 .f32) (row col : Arr F S1700000 .i32) : Arr F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 h (wrapIdx row))
      (broadcastInDim S1700000x64 ![0, 1] bcast_S1700000x1_S1700000x64_0_1
        (broadcastInDim S1700000x1 ![0] bcast_S1700000_S1700000x1_0 (edgeWeight row col))))

/-- Aggregation of 16-wide rows. -/
def agg16 (h : Arr F S100000x16 .f32) (row col : Arr F S1700000 .i32) : Arr F S100000x16 .f32 :=
  Host.scatterAdd scatter_S100000x16_S1700000x1_S1700000x16_1_0_0_1
    (broadcastInDim S100000x16 ![] bcast_S_S100000x16 (constant S_ .f32 0x00000000#32))
    (broadcastInDim S1700000x1 ![0] bcast_S1700000_S1700000x1_0 col)
    (mulf (Host.gather gather_S100000x16_S1700000x1_S1700000x16_1_0_n_n_0_1_116 h (wrapIdx row))
      (broadcastInDim S1700000x16 ![0, 1] bcast_S1700000x1_S1700000x16_0_1
        (broadcastInDim S1700000x1 ![0] bcast_S1700000_S1700000x1_0 (edgeWeight row col))))

/-- The first layer's product: features times weights. -/
def lin1 (x : Arr F S100000x128 .f32) (w : Arr F S128x64 .f32) : Arr F S100000x64 .f32 :=
  Host.dotGeneral dot_S100000x128_S128x64_S100000x64_1_0_0_1_n_n none x w

/-- The second layer's product. -/
def lin2 (h : Arr F S100000x64 .f32) (w : Arr F S64x16 .f32) : Arr F S100000x16 .f32 :=
  Host.dotGeneral dot_S100000x64_S64x16_S100000x16_1_0_0_1_n_n none h w

/-- The first layer's end: add the bias along every row, then `max(·, 0)`. -/
def biasRelu (a : Arr F S100000x64 .f32) (b : Arr F S64 .f32) : Arr F S100000x64 .f32 :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer's sum with its bias along every row. -/
def biased16 (a : Arr F S100000x16 .f32) (b : Arr F S16 .f32) : Arr F S100000x16 .f32 :=
  addf a (broadcastInDim S100000x16 ![0, 1] bcast_S1x16_S100000x16_0_1 (broadcastInDim S1x16 ![1] bcast_S16_S1x16_1 b))

/-- Each row minus its maximum. -/
def shifted (z : Arr F S100000x16 .f32) : Arr F S100000x16 .f32 :=
  subf z (broadcastInDim S100000x16 ![0, 1] bcast_S100000x1_S100000x16_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x16_S100000_d1 h_S_))))

/-- A shifted row minus the logarithm of the sum of its exponentials. -/
def logNormalized (zs : Arr F S100000x16 .f32) : Arr F S100000x16 .f32 :=
  subf zs (broadcastInDim S100000x16 ![0, 1] bcast_S100000x1_S100000x16_0_1 (Host.log (broadcastInDim S100000x1 ![0] bcast_S100000_S100000x1_0
    (Host.reduceAdd (Host.exp zs) (constant S_ .f32 0x00000000#32) reducesTo_S100000x16_S100000_d1 h_S_))))

/-- The second layer's end: add the bias, then the row-wise log-softmax. -/
def biasLogSoftmax (a : Arr F S100000x16 .f32) (b : Arr F S16 .f32) : Arr F S100000x16 .f32 :=
  logNormalized (shifted (biased16 a b))

/-- The whole network, as a function of the six arguments. -/
def gcn (x : Arr F S100000x128 .f32) (e : Arr F S2x1600000 .i32) (w1 : Arr F S128x64 .f32) (b1 : Arr F S64 .f32)
    (w2 : Arr F S64x16 .f32) (b2 : Arr F S16 .f32) : Arr F S100000x16 .f32 :=
  biasLogSoftmax (agg16 (lin2 (biasRelu (agg64 (lin1 x w1) (rowOf e) (colOf e)) b1) w2) (rowOf e) (colOf e)) b2

end Cert.Gcn

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«176012_j64836826300768_1_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.SpecRead.lean ====
/-
  The dense stages of the network read at one entry.

  At the exact values a product's entry (r, q) is the sum over k of the left operand's (r, k) times the right
  operand's (k, q); the first layer's end at (r, q) is `max (a(r,q) + b(q)) 0`; and the second layer's end along row r is
  the log-softmax of the row `k ↦ a(r,k) + b(k)`: with `M` the fold of `max` over the row from −∞, entry q is
  `(z q − M) − log Σₖ exp (z k − M)`. The host takes the row maximum once more against −∞ and starts its sum from 0;
  neither changes the value.
-/
import proofs.«176012_j64836826300768_1_alg».proof.Proof.Spec
import proofs.«176012_j64836826300768_1_alg».proof.Proof.LibPlainDot
import proofs.«176012_j64836826300768_1_alg».proof.Proof.LibHostRowMax
import proofs.«176012_j64836826300768_1_alg».proof.Proof.LibHostColumn
import proofs.«176012_j64836826300768_1_alg».proof.Proof.LibHostRow
import proofs.«176012_j64836826300768_1_alg».proof.Proof.LibHostRowSum
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.TcCoe Idealize.ShloMosaic.ValueIdx
open Cert.ReferenceIdeal Cert.ReferenceIdeal.Facts₀ Cert.ReferenceIdeal.Facts

variable [Cert.ReferenceIdeal.Facts]

/-- −∞ as the row maximum's starting value. -/
abbrev negInf : EReal := Ideal.ofBits .f32 0xFF800000#32

/-- The maximum of a row of sixteen, from −∞. -/
def rowMax (z : Fin 16 → EReal) : EReal := (Finset.univ : Finset (Fin 16)).fold max negInf z

/-- The log-softmax of a row of sixteen, at entry q. -/
def logSoftmaxRow (z : Fin 16 → EReal) (q : Fin 16) : EReal :=
  (z q - rowMax z) - Ideal.log (∑ k : Fin 16, Ideal.exp (z k - rowMax z))

theorem lin1_apply (x : Arr Ideal S100000x128 .f32) (w : Arr Ideal S128x64 .f32) (r : Fin 100000) (q : Fin 64) :
    lin1 x w (ix2 r q) = ∑ k : Fin 128, x (ix2 r k) * w (ix2 k q) :=
  Cert.Sage.dotGeneral_plain_apply (M := 100000) (K := 128) (N := 64) none .single x w r q

theorem lin2_apply (h : Arr Ideal S100000x64 .f32) (w : Arr Ideal S64x16 .f32) (r : Fin 100000) (q : Fin 16) :
    lin2 h w (ix2 r q) = ∑ k : Fin 64, h (ix2 r k) * w (ix2 k q) :=
  Cert.Sage.dotGeneral_plain_apply (M := 100000) (K := 64) (N := 16) none .single h w r q

theorem biasRelu_apply (a : Arr Ideal S100000x64 .f32) (b : Arr Ideal S64 .f32) (r : Fin 100000) (q : Fin 64) :
    biasRelu a b (ix2 r q) = max (a (ix2 r q) + b (ix1 q)) (Ideal.ofBits .f32 0x00000000#32) := by
  unfold biasRelu
  rw [maximumf_apply, addf_apply, Cert.LibHostRow.rows_apply, Cert.LibHostRow.row_apply, Cert.LibHostRow.scalar_apply, constant_apply]

theorem biased16_apply (a : Arr Ideal S100000x16 .f32) (b : Arr Ideal S16 .f32) (r : Fin 100000) (q : Fin 16) :
    biased16 a b (ix2 r q) = a (ix2 r q) + b (ix1 q) := by
  unfold biased16
  rw [addf_apply, Cert.LibHostRow.rows_apply, Cert.LibHostRow.row_apply]

/-- The shape fact the host's row reductions are read with. -/
theorem reduces_rows : (⟨2, ![100000, 16]⟩ : Shape).Reduces [1] ⟨1, ![100000]⟩ :=
  ⟨reducesTo_S100000x16_S100000_d1.1, Nat.one_pos, reducesTo_S100000x16_S100000_d1.2⟩

theorem shifted_apply (z : Arr Ideal S100000x16 .f32) (r : Fin 100000) (q : Fin 16) :
    shifted z (ix2 r q) = z (ix2 r q) - rowMax fun k => z (ix2 r k) := by
  unfold shifted
  rw [subf_apply, Cert.LibHostColumn.spread_apply, Cert.LibHostColumn.column_apply, maximumf_apply,
    Cert.LibHostRow.scalar_apply, constant_apply, Cert.LibHostRowMax.reduce_max_row z _ _ reduces_rows _ r, constant_apply]
  exact congrArg (z (ix2 r q) - ·) (Cert.LibHostColumn.max_start_fold _ _ _)

theorem logNormalized_apply (zs : Arr Ideal S100000x16 .f32) (r : Fin 100000) (q : Fin 16) :
    logNormalized zs (ix2 r q) = zs (ix2 r q) - Ideal.log (∑ k : Fin 16, Ideal.exp (zs (ix2 r k))) := by
  unfold logNormalized
  rw [subf_apply, Cert.LibHostColumn.spread_apply, Cert.LibHostRowSum.hostLog_apply, Cert.LibHostColumn.column_apply,
    Cert.LibHostRowSum.reduceAdd_row _ _ _ reduces_rows _ r, constant_apply, Ideal.ofBits_zero_f32, zero_add]
  rfl

theorem biasLogSoftmax_apply (a : Arr Ideal S100000x16 .f32) (b : Arr Ideal S16 .f32) (r : Fin 100000) (q : Fin 16) :
    biasLogSoftmax a b (ix2 r q) = logSoftmaxRow (fun k => a (ix2 r k) + b (ix1 k)) q := by
  unfold biasLogSoftmax logSoftmaxRow
  rw [logNormalized_apply]
  simp only [shifted_apply, biased16_apply]

end Cert.Gcn

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.PayRead.lean ====
/-
  What each kernel body stores, read at one entry of the block.

  Read at the exact values, with the block's entry (p, q): the two product bodies store the sum over k of the left
  block's (p, k) times the weight's (k, q) (rounding the operands to a shorter format is the identity there, and the
  accumulator starts at zero); the bias-and-threshold body stores `max (x(p,q) + b(0,q)) 0`; the last body stores the
  log-softmax of the row `k ↦ x(p,k) + b(0,k)`: the row's maximum from −∞ is subtracted, then the logarithm of the sum
  of the exponentials of the shifted row.
-/
import proofs.«176012_j64836826300768_1_alg».proof.Proof.Gen.KernelIdeal.Skeleton
import proofs.«176012_j64836826300768_1_alg».proof.Proof.SpecRead
import proofs.«176012_j64836826300768_1_alg».proof.Proof.LibLayout
import Idealize.ShloMosaic.Lib.ValueLayout

noncomputable section

namespace Cert.Gcn

open Idealize.ShloMosaic Idealize.ShloMosaic.TcCoe Idealize.ShloMosaic.ValueIdx

variable [Cert.KernelIdeal.Facts]

/-- The first product body at (p, q). -/
theorem pay0_apply (x0 : Vec Ideal Cert.KernelIdeal.S10000x128 .f32) (x1 : Vec Ideal Cert.KernelIdeal.S128x64 .f32)
    (p : Fin 10000) (q : Fin 64) :
    Cert.KernelIdeal.Gen.k0_pay1 (F := Ideal) x0 x1 (ix2 p q) = ∑ k : Fin 128, x0 (ix2 p k) * x1 (ix2 k q) := by
  unfold Cert.KernelIdeal.Gen.k0_pay1
  exact Cert.Sage.matmul_plain_zero_apply (M := 10000) (K := 128) (N := 64) none _ _ p q

/-- The second product body at (p, q). -/
theorem pay2_apply (x0 : Vec Ideal Cert.KernelIdeal.S10000x64 .f32) (x1 : Vec Ideal Cert.KernelIdeal.S64x16 .f32)
    (p : Fin 10000) (q : Fin 16) :
    Cert.KernelIdeal.Gen.k2_pay1 (F := Ideal) x0 x1 (ix2 p q) = ∑ k : Fin 64, x0 (ix2 p k) * x1 (ix2 k q) := by
  unfold Cert.KernelIdeal.Gen.k2_pay1
  rw [shapeCast_self]
  exact Cert.Sage.matmul_plain_zero_apply (M := 10000) (K := 64) (N := 16) none _ _ p q

/-- The bias-and-threshold body at (p, q). -/
theorem pay1_apply (x0 : Vec Ideal Cert.KernelIdeal.S10000x64 .f32) (x1 : Vec Ideal Cert.KernelIdeal.S1x64 .f32)
    (p : Fin 10000) (q : Fin 64) :
    Cert.KernelIdeal.Gen.k1_pay1 (F := Ideal) x0 x1 (ix2 p q)
      = max (x0 (ix2 p q) + x1 (ix2 (0 : Fin 1) q)) (Ideal.ofBits .f32 0x00000000#32) := by
  unfold Cert.KernelIdeal.Gen.k1_pay1
  rw [shapeCast_self, shapeCast_self]
  show max (x0 (ix2 p q) + broadcastTo Cert.KernelIdeal.S10000x64 x1 _ (ix2 p q)) _ = _
  rw [broadcastTo_1b_ab_apply]
  rfl

/-- A row-wise log-softmax body over any block of sixteen-wide rows, at (p, q): the row maximum as a column spread
    back over the row, the shifted row, its exponentials summed, the logarithm spread back and subtracted. -/
theorem rowSoftmax_apply (v : FVec Ideal ⟨2, ![10000, 16]⟩ .f32)
    (hR : (⟨2, ![10000, 16]⟩ : Shape).Reduces [1] ⟨1, ![10000]⟩) (hφ : FKind.Formats .f32)
    (hmax : (0xFF800000#32 : BitVec 32) = FKind.maximumf.neutral .f32 hφ) (hadd : (0x00000000#32 : BitVec 32) = FKind.add.neutral .f32 hφ)
    (hc : (⟨1, ![10000]⟩ : Shape).ShapeCasts ⟨2, ![10000, 1]⟩) (hb : (⟨2, ![10000, 1]⟩ : Shape).Broadcasts ⟨2, ![10000, 16]⟩)
    (p : Fin 10000) (q : Fin 16) :
    subf (subf v (broadcastTo ⟨2, ![10000, 16]⟩ (shapeCast ⟨2, ![10000, 1]⟩ (multiReduction .maximumf [1] ⟨1, ![10000]⟩ v 0xFF800000#32 hR hφ hmax) hc) hb))
      (broadcastTo ⟨2, ![10000, 16]⟩ (log (shapeCast ⟨2, ![10000, 1]⟩ (multiReduction .add [1] ⟨1, ![10000]⟩
        (exp (subf v (broadcastTo ⟨2, ![10000, 16]⟩ (shapeCast ⟨2, ![10000, 1]⟩ (multiReduction .maximumf [1] ⟨1, ![10000]⟩ v 0xFF800000#32 hR hφ hmax) hc) hb)))
        0x00000000#32 hR hφ hadd) hc)) hb) (ix2 p q)
      = logSoftmaxRow (fun k => v (ix2 p k)) q := by
  have hM : ∀ p : Fin 10000, multiReduction .maximumf [1] ⟨1, ![10000]⟩ v 0xFF800000#32 hR hφ hmax (ix1 p) = rowMax fun k => v (ix2 p k) := fun p => by
    rw [Ideal.multiReduction_maximumf_single]
    unfold rowMax
    refine congrArg (fun f => Finset.fold max negInf f (Finset.univ : Finset (Fin 16))) (funext fun k => ?_)
    show v (hR.lift (ix1 p) k) = _
    rw [Cert.LibHostRowMax.lift_row hR p k]
  have hvs : ∀ (p : Fin 10000) (k : Fin 16),
      subf v (broadcastTo ⟨2, ![10000, 16]⟩ (shapeCast ⟨2, ![10000, 1]⟩ (multiReduction .maximumf [1] ⟨1, ![10000]⟩ v 0xFF800000#32 hR hφ hmax) hc) hb) (ix2 p k)
        = v (ix2 p k) - rowMax fun k => v (ix2 p k) := fun p k => by
    rw [subf_apply, Cert.LibLayout.broadcastTo_a1_ab_apply, Cert.LibLayout.shapeCast_a_a1_apply, hM]
  rw [subf_apply, Cert.LibLayout.broadcastTo_a1_ab_apply, hvs]
  show _ - Ideal.log (shapeCast ⟨2, ![10000, 1]⟩ _ hc (ix2 p (0 : Fin 1))) = _
  rw [Cert.LibLayout.shapeCast_a_a1_apply, Ideal.multiReduction_add_single]
  unfold logSoftmaxRow
  refine congrArg (fun s => _ - Ideal.log s) (Finset.sum_congr rfl fun k _ => ?_)
  show Ideal.exp (subf v _ (hR.lift (ix1 p) k)) = _
  rw [Cert.LibHostRowMax.lift_row hR p k]
  exact congrArg Ideal.exp (hvs p k)

/-- The last body at (p, q). -/
theorem pay3_apply (x0 : Vec Ideal Cert.KernelIdeal.S10000x16 .f32) (x1 : Vec Ideal Cert.KernelIdeal.S1x16 .f32)
    (p : Fin 10000) (q : Fin 16) :
    Cert.KernelIdeal.Gen.k3_pay1 (F := Ideal) x0 x1 (ix2 p q)
      = logSoftmaxRow (fun k => x0 (ix2 p k) + x1 (ix2 (0 : Fin 1) k)) q := by
  unfold Cert.KernelIdeal.Gen.k3_pay1
  rw [shapeCast_self, shapeCast_self]
  refine (rowSoftmax_apply (addf x0 (broadcastTo Cert.KernelIdeal.S10000x16 x1 _)) _ _ _ _ _ _ p q).trans ?_
  refine congrArg (fun z => logSoftmaxRow z q) (funext fun k => ?_)
  rw [addf_apply, broadcastTo_1b_ab_apply]

end Cert.Gcn

end
-- ==== Proof.Region0.lean ====
/-
  Region 0: the first layer's product, slab by slab.

  The region is a pipeline over ten grid points; point t works on rows 10000·t … 10000·t + 9999. Its first input
  window is that slab of rows of the left operand, its second input window the whole right operand, and its output
  window the same slab of rows of the result. What point t writes back is therefore the slab of the whole product
  (lin1) of the two arrays as the region finds them, and the ten slabs tile the result array: after the region the
  result array holds the product.
-/
import proofs.«176012_j64836826300768_1_alg».proof.Proof.Gen.KernelIdeal.Frame
import proofs.«176012_j64836826300768_1_alg».proof.Proof.PayRead
import proofs.«176012_j64836826300768_1_alg».proof.Proof.SpecRead
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable [Cert.ReferenceIdeal.Facts]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-slab windows sit at block row t, the whole-array window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := by have h := t.isLt; have hN : cfg0.N = 10 := N_0; omega

/-- What point t writes back is slab t of the product of the two arrays as the region finds them. -/
theorem flushed_eq (c : Dev nD) (t : Fin cfg0.N) :
    (dat0 V c).flushed 2 t = ((cfg0.win 2).blk t).view.read (Elt Ideal) (lin1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  have ht := t_lt t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = lin1 (V c main_arg0) (V c main_arg2) (((cfg0.win 2).blk t).view.emb (ix2 p q))
  have hemb : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb, lin1_apply]
  refine (pay0_apply (iblk0 V c 0 t) (iblk0 V c 1 t) p q).trans ?_
  refine Finset.sum_congr rfl fun k _ => ?_
  have h0 : ((cfg0.win 0).blk t).view.emb (ix2 p k) = ix2 (⟨t.val * 10000 + p.val, by omega⟩ : Fin 100000) k := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  have hx0 : iblk0 V c 0 t (ix2 p k) = V c main_arg0 (ix2 (⟨t.val * 10000 + p.val, by omega⟩ : Fin 100000) k) :=
    (congrArg (V c main_arg0) h0 : V c main_arg0 (((cfg0.win 0).blk t).view.emb (ix2 p k)) = _)
  have hx1 : iblk0 V c 1 t (ix2 k q) = V c main_arg2 (ix2 k q) :=
    (congrArg (V c main_arg2) h1 : V c main_arg2 (((cfg0.win 1).blk t).view.emb (ix2 k q)) = _)
  rw [hx0, hx1]

/-- An index of the result array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v7).slice (win0_2.rect t)).set ↔ _
  rw [View.set_slice_whole, Rect.mem_set_unit]
  exact Iff.rfl

/-- Every row of the result array lies in the slab of the point numbered by the row's quotient by 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨e0, e1, e2, e3, e4, e5⟩ := idx_facts (⟨(i 0).val / 10000, by omega⟩ : Fin cfg0.N)
  refine ⟨⟨(i 0).val / 10000, by omega⟩, flush0_2 _, ?_⟩
  rw [mem_blk]
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- After the region its result array holds the product of the two arrays the region found. -/
theorem array_eq (c : Dev nD) : (dat0 V c).arrAt 2 cfg0.N = lin1 (V c main_arg0) (V c main_arg2) :=
  (dat0 V c).arrAt_eq_of_cover 2 _ (fun t _ => flushed_eq V c t) cover

end Cert.KernelIdeal.Region0

end
-- ==== Proof.Region1.lean ====
/-
  Region 1: the first layer's bias and threshold, slab by slab.

  The region is a pipeline over ten grid points; point t works on rows 10000·t … 10000·t + 9999. Its first input
  window is that slab of rows of the aggregated array, its second input window the bias as one row, and its output
  window the same slab of rows of the result. Every stored row depends only on the same row of the input and on the
  bias, so what point t writes back is slab t of the whole-array function (biasRelu), and the ten slabs tile the
  result array.
-/
import proofs.«176012_j64836826300768_1_alg».proof.Proof.Gen.KernelIdeal.Frame
import proofs.«176012_j64836826300768_1_alg».proof.Proof.PayRead
import proofs.«176012_j64836826300768_1_alg».proof.Proof.SpecRead
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable [Cert.ReferenceIdeal.Facts]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-slab windows sit at block row t, the bias window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 10 := by have h := t.isLt; have hN : cfg1.N = 10 := N_1; omega

/-- What point t writes back is slab t of the whole-array function of the arrays as the region finds them, the bias
    window's one row being the bias vector `b`. -/
theorem flushed_eq (c : Dev nD) (b : Arr Ideal Cert.ReferenceIdeal.S64 .f32)
    (hb : ∀ q : Fin 64, V c main_v44 (ix2 (0 : Fin 1) q) = b (ix1 q)) (t : Fin cfg1.N) :
    (dat1 V c).flushed 2 t = ((cfg1.win 2).blk t).view.read (Elt Ideal) (biasRelu (V c main_v43) b) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  have ht := t_lt t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q) = biasRelu (V c main_v43) b (((cfg1.win 2).blk t).view.emb (ix2 p q))
  have hemb : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  have h0 : ∀ k : Fin 64, ((cfg1.win 0).blk t).view.emb (ix2 p k) = ix2 (⟨t.val * 10000 + p.val, by omega⟩ : Fin 100000) k := fun k => by
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have h1 : ∀ k : Fin 64, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  rw [hemb, biasRelu_apply]
  refine (pay1_apply (iblk1 V c 0 t) (iblk1 V c 1 t) p q).trans ?_
  have hx0 : iblk1 V c 0 t (ix2 p q) = V c main_v43 (ix2 (⟨t.val * 10000 + p.val, by omega⟩ : Fin 100000) q) :=
    (congrArg (V c main_v43) (h0 q) : V c main_v43 (((cfg1.win 0).blk t).view.emb (ix2 p q)) = _)
  have hx1 : iblk1 V c 1 t (ix2 (0 : Fin 1) q) = b (ix1 q) :=
    ((congrArg (V c main_v44) (h1 q) : V c main_v44 (((cfg1.win 1).blk t).view.emb (ix2 (0 : Fin 1) q)) = _)).trans (hb q)
  rw [hx0, hx1]

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row of the result array lies in the slab of the point numbered by the row's quotient by 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨e0, e1, e2, e3, e4, e5⟩ := idx_facts (⟨(i 0).val / 10000, by omega⟩ : Fin cfg1.N)
  refine ⟨⟨(i 0).val / 10000, by omega⟩, flush1_2 _, ?_⟩
  rw [mem_blk]
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 64 ≤ (i 1).val ∧ (i 1).val < win1_2.index _ (1 : Fin 2) * 64 + 64
    rw [e5]; omega

/-- After the region its result array holds the whole-array function of the aggregated array the region found and the bias. -/
theorem array_eq (c : Dev nD) (b : Arr Ideal Cert.ReferenceIdeal.S64 .f32)
    (hb : ∀ q : Fin 64, V c main_v44 (ix2 (0 : Fin 1) q) = b (ix1 q)) :
    (dat1 V c).arrAt 2 cfg1.N = biasRelu (V c main_v43) b :=
  (dat1 V c).arrAt_eq_of_cover 2 _ (fun t _ => flushed_eq V c b hb t) cover

end Cert.KernelIdeal.Region1

end
-- ==== Proof.Region2.lean ====
/-
  Region 2: the second layer's product, slab by slab.

  The region is a pipeline over ten grid points; point t works on rows 10000·t … 10000·t + 9999. Its first input
  window is that slab of rows of the left operand, its second input window the whole right operand, and its output
  window the same slab of rows of the result. What point t writes back is therefore the slab of the whole product
  (lin2) of the two arrays as the region finds them, and the ten slabs tile the result array: after the region the
  result array holds the product.
-/
import proofs.«176012_j64836826300768_1_alg».proof.Proof.Gen.KernelIdeal.Frame
import proofs.«176012_j64836826300768_1_alg».proof.Proof.PayRead
import proofs.«176012_j64836826300768_1_alg».proof.Proof.SpecRead
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable [Cert.ReferenceIdeal.Facts]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-slab windows sit at block row t, the whole-array window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 10 := by have h := t.isLt; have hN : cfg2.N = 10 := N_2; omega

/-- What point t writes back is slab t of the product of the two arrays as the region finds them. -/
theorem flushed_eq (c : Dev nD) (t : Fin cfg2.N) :
    (dat2 V c).flushed 2 t = ((cfg2.win 2).blk t).view.read (Elt Ideal) (lin2 (V c main_v45) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x16) hz]
  obtain ⟨e0, e1, e2, e3, e4, e5⟩ := idx_facts t
  have ht := t_lt t
  funext j
  obtain ⟨p, q, rfl⟩ : ∃ (p : Fin 10000) (q : Fin 16), j = ix2 p q := ⟨j 0, j 1, eq_ix2 j⟩
  show k2_pay1 (iblk2 V c 0 t) (iblk2 V c 1 t) (ix2 p q) = lin2 (V c main_v45) (V c main_arg4) (((cfg2.win 2).blk t).view.emb (ix2 p q))
  have hemb : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 16 + 1 * q.val = q.val; omega
  rw [hemb, lin2_apply]
  refine (pay2_apply (iblk2 V c 0 t) (iblk2 V c 1 t) p q).trans ?_
  refine Finset.sum_congr rfl fun k _ => ?_
  have h0 : ((cfg2.win 0).blk t).view.emb (ix2 p k) = ix2 (⟨t.val * 10000 + p.val, by omega⟩ : Fin 100000) k := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have h1 : ((cfg2.win 1).blk t).view.emb (ix2 k q) = ix2 k q := by
    funext a; apply Fin.ext
    match a with
    | ⟨0, _⟩ => show win2_1.index t (0 : Fin 2) * 64 + 1 * k.val = k.val; omega
    | ⟨1, _⟩ => show win2_1.index t (1 : Fin 2) * 16 + 1 * q.val = q.val; omega
  have hx0 : iblk2 V c 0 t (ix2 p k) = V c main_v45 (ix2 (⟨t.val * 10000 + p.val, by omega⟩ : Fin 100000) k) :=
    (congrArg (V c main_v45) h0 : V c main_v45 (((cfg2.win 0).blk t).view.emb (ix2 p k)) = _)
  have hx1 : iblk2 V c 1 t (ix2 k q) = V c main_arg4 (ix2 k q) :=
    (congrArg (V c main_arg4) h1 : V c main_arg4 (((cfg2.win 1).blk t).view.emb (ix2 k q)) = _)
  rw [hx0, hx1]

/-- An index of the result array is in point t's block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- Every row of the result array lies in the slab of the point numbered by the row's quotient by 10000. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  obtain ⟨e0, e1, e2, e3, e4, e5⟩ := idx_facts (⟨(i 0).val / 10000, by omega⟩ : Fin cfg2.N)
  refine ⟨⟨(i 0).val / 10000, by omega⟩, flush2_2 _, ?_⟩
  rw [mem_blk]
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 16 ≤ (i 1).val ∧ (i 1).val < win2_2.index _ (1 : Fin 2) * 16 + 16
    rw [e5]; omega

/-- After the region its result array holds the product of the two arrays the region found. -/
theorem array_eq (c : Dev nD) : (dat2 V c).arrAt 2 cfg2.N = lin2 (V c main_v45) (V c main_arg4) :=
  (dat2 V c).arrAt_eq_of_cover 2 _ (fun t _ => flushed_eq V c t) cover

end Cert.KernelIdeal.Region2

end
-- ==== Proof.Region3.lean ====
/-
  Region 3: the second layer's bias and row-wise log-softmax, slab by slab.

  The region is a pipeline over ten grid points; point t works on rows 10000·t … 10000·t + 9999. Its first input
  window is that slab of rows of the aggregated array, its second input window the bias as one row, and its output
  window the same slab of rows of the result. Every stored row depends only on the same row of the input and on the
  bias, so what point t writes back is slab t of the whole-array function (biasLogSoftmax), and the ten slabs tile the
  result array.
-/
import proofs.«176012_j64836826300768_1_alg».proof.Proof.Gen.KernelIdeal.Frame
import proofs.«176012_j64836826300768_1_alg».proof.Proof.PayRead
import proofs.«176012_j64836826300768_1_alg».proof.Proof.SpecRead
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable [Cert.ReferenceIdeal.Facts]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-slab windows sit at block row t, the bias window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem t_lt (t : Fin cfg3.N) : t.val < 10 := by have h := t.isLt; have hN : cfg3.N = 10 := N_3; omega

/-- What point t writes back is slab t of the whole-array function of the arrays as the region finds them, the bias
    window's one row being the bias vector `b`. -/
theorem flushed_eq (c : Dev nD) (b : Arr Ideal Cert.ReferenceIdeal.S16 .f32)
    (hb : ∀ q : Fin 16, V c main_v83 (ix2 (0 : Fin 1) q) = b (ix1 q)) (t : Fin cfg3.N) :
    (dat3 V c).flushed 2 t = ((cfg3.win 2).blk t).view.read (Elt Ideal) (biasLogSoftmax (V c main_v82) b) := by
  show (cfg3.win 2).cut (grid3.coords t) ((dat3 V c).after 2 t) = _
  rw [after3_2]
  unfold out3_2
  rw [View.canon_unit_zero hz]
  simp only [View.ld_unit_zero (S := S10000x16) hz, View.ld_unit_zero (S := S1x16) hz]
  obtain ⟨e0, e1, e2, e3, e4, e5⟩ := idx_facts t
  have ht := t_lt t
  funext j
  obtain ⟨p, q, rfl⟩ : ∃ (p : Fin 10000) (q : Fin 16), j = ix2 p q := ⟨j 0, j 1, eq_ix2 j⟩
  show k3_pay1 (iblk3 V c 0 t) (iblk3 V c 1 t) (ix2 p q) = biasLogSoftmax (V c main_v82) b (((cfg3.win 2).blk t).view.emb (ix2 p q))
  have hemb : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 16 + 1 * q.val = q.val; omega
  have h0 : ∀ k : Fin 16, ((cfg3.win 0).blk t).view.emb (ix2 p k) = ix2 (⟨t.val * 10000 + p.val, by omega⟩ : Fin 100000) k := fun k => by
    funext a; apply Fin.ext
    match a with
    | ⟨0, _⟩ => show win3_0.index t (0 : Fin 2) * 10000 + 1 * p.val = t.val * 10000 + p.val; omega
    | ⟨1, _⟩ => show win3_0.index t (1 : Fin 2) * 16 + 1 * k.val = k.val; omega
  have h1 : ∀ k : Fin 16, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 16 + 1 * k.val = k.val; omega
  rw [hemb, biasLogSoftmax_apply]
  refine (pay3_apply (iblk3 V c 0 t) (iblk3 V c 1 t) p q).trans ?_
  refine congrArg (fun z => logSoftmaxRow z q) (funext fun k => ?_)
  have hx0 : iblk3 V c 0 t (ix2 p k) = V c main_v82 (ix2 (⟨t.val * 10000 + p.val, by omega⟩ : Fin 100000) k) :=
    (congrArg (V c main_v82) (h0 k) : V c main_v82 (((cfg3.win 0).blk t).view.emb (ix2 p k)) = _)
  have hx1 : iblk3 V c 1 t (ix2 (0 : Fin 1) k) = b (ix1 k) :=
    ((congrArg (V c main_v83) (h1 k) : V c main_v83 (((cfg3.win 1).blk t).view.emb (ix2 (0 : Fin 1) k)) = _)).trans (hb k)
  rw [hx0, hx1]

/-- An index of the result array is in point t's block iff each coordinate is in the block's range on its axis. -/
theorem mem_blk (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v84).slice (win3_2.rect t)).set ↔ _
  rw [View.set_slice_whole, Rect.mem_set_unit]
  exact Iff.rfl

/-- Every row of the result array lies in the slab of the point numbered by the row's quotient by 10000. -/
theorem cover (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 10 := N_3
  obtain ⟨e0, e1, e2, e3, e4, e5⟩ := idx_facts (⟨(i 0).val / 10000, by omega⟩ : Fin cfg3.N)
  refine ⟨⟨(i 0).val / 10000, by omega⟩, flush3_2 _, ?_⟩
  rw [mem_blk]
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 16 ≤ (i 1).val ∧ (i 1).val < win3_2.index _ (1 : Fin 2) * 16 + 16
    rw [e5]; omega

/-- After the region its result array holds the whole-array function of the aggregated array the region found and the bias. -/
theorem array_eq (c : Dev nD) (b : Arr Ideal Cert.ReferenceIdeal.S16 .f32)
    (hb : ∀ q : Fin 16, V c main_v83 (ix2 (0 : Fin 1) q) = b (ix1 q)) :
    (dat3 V c).arrAt 2 cfg3.N = biasLogSoftmax (V c main_v82) b :=
  (dat3 V c).arrAt_eq_of_cover 2 _ (fun t _ => flushed_eq V c b hb t) cover

end Cert.KernelIdeal.Region3

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.KernelValue.lean ====
/-
  The idealized kernel's result array as the network's function of the arguments.

  The run leaves the result buffer at the last boundary's contents, a fold through the program from the launch memory:
  host stretches apply their operations, regions replace their result arrays. Followed from the launch: the first host
  stretch builds the extended edge list; region 0 leaves the first product; the next stretch aggregates it; region 1
  adds the bias and thresholds; region 2 leaves the second product; the next stretch aggregates it; region 3 adds the
  bias and takes the row-wise log-softmax. The edge list and the arguments are written by no later segment, so every
  segment reads them as first built or as launched. The composite is `gcn` of the six arguments.
-/
import proofs.«176012_j64836826300768_1_alg».proof.Proof.Gen.KernelIdeal.Frame
import proofs.«176012_j64836826300768_1_alg».proof.Proof.Region0
import proofs.«176012_j64836826300768_1_alg».proof.Proof.Region1
import proofs.«176012_j64836826300768_1_alg».proof.Proof.Region2
import proofs.«176012_j64836826300768_1_alg».proof.Proof.Region3
import proofs.«176012_j64836826300768_1_alg».proof.Proof.Spec
import proofs.«176012_j64836826300768_1_alg».proof.Proof.LibTRef
import Idealize.ShloMosaic.Lib.StableHlo.Run
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo
open Cert.Gcn

variable [Cert.ReferenceIdeal.Facts]

variable (m : (ℓ : Loc nD τ sig) → Buf (Elt Ideal) ℓ) (ρ : Dev nD → PrngReg) (c : Dev nD)

/-! ## The first host stretch: the extended edge list; the arguments untouched -/

theorem row1_base : W1 m ρ c (Proc.devRef .tc main_v3) = rowOf (m ((c : Thread nD τ).loc main_arg1)) := by
  dsimp only [W1, hostOps0]; after_results <;> rfl
theorem col1_base : W1 m ρ c (Proc.devRef .tc main_v6) = colOf (m ((c : Thread nD τ).loc main_arg1)) := by
  dsimp only [W1, hostOps0]; after_results <;> rfl
theorem a01_base : W1 m ρ c (Proc.devRef .tc main_arg0) = m ((c : Thread nD τ).loc main_arg0) := by
  dsimp only [W1, hostOps0]; after_results <;> rfl
theorem a21_base : W1 m ρ c (Proc.devRef .tc main_arg2) = m ((c : Thread nD τ).loc main_arg2) := by
  dsimp only [W1, hostOps0]; after_results <;> rfl
theorem a31_base : W1 m ρ c (Proc.devRef .tc main_arg3) = m ((c : Thread nD τ).loc main_arg3) := by
  dsimp only [W1, hostOps0]; after_results <;> rfl
theorem a41_base : W1 m ρ c (Proc.devRef .tc main_arg4) = m ((c : Thread nD τ).loc main_arg4) := by
  dsimp only [W1, hostOps0]; after_results <;> rfl
theorem a51_base : W1 m ρ c (Proc.devRef .tc main_arg5) = m ((c : Thread nD τ).loc main_arg5) := by
  dsimp only [W1, hostOps0]; after_results <;> rfl

/-! ## The edge list and the arguments at the later boundaries -/

theorem row1 : W1 m ρ c (Proc.devRef .tc main_v3) = rowOf (m ((c : Thread nD τ).loc main_arg1)) := row1_base m ρ c
theorem row2 : W2 m ρ c (Proc.devRef .tc main_v3) = rowOf (m ((c : Thread nD τ).loc main_arg1)) := (W2_of_ne m ρ c main_v3 (by decide)).trans (row1 m ρ c)
theorem row5 : W5 m ρ c (Proc.devRef .tc main_v3) = rowOf (m ((c : Thread nD τ).loc main_arg1)) := (by dsimp only [W5, W4, W3, hostOps1, hostOps1_1, hostOps1_2]; after_results_simp : W5 m ρ c (Proc.devRef .tc main_v3) = W2 m ρ c (Proc.devRef .tc main_v3)).trans (row2 m ρ c)
theorem row6 : W6 m ρ c (Proc.devRef .tc main_v3) = rowOf (m ((c : Thread nD τ).loc main_arg1)) := (W6_of_ne m ρ c main_v3 (by decide)).trans (row5 m ρ c)
theorem row7 : W7 m ρ c (Proc.devRef .tc main_v3) = rowOf (m ((c : Thread nD τ).loc main_arg1)) := (W7_of_ne m ρ c main_v3 (by decide)).trans (row6 m ρ c)

theorem col1 : W1 m ρ c (Proc.devRef .tc main_v6) = colOf (m ((c : Thread nD τ).loc main_arg1)) := col1_base m ρ c
theorem col2 : W2 m ρ c (Proc.devRef .tc main_v6) = colOf (m ((c : Thread nD τ).loc main_arg1)) := (W2_of_ne m ρ c main_v6 (by decide)).trans (col1 m ρ c)
theorem col5 : W5 m ρ c (Proc.devRef .tc main_v6) = colOf (m ((c : Thread nD τ).loc main_arg1)) := (by dsimp only [W5, W4, W3, hostOps1, hostOps1_1, hostOps1_2]; after_results_simp : W5 m ρ c (Proc.devRef .tc main_v6) = W2 m ρ c (Proc.devRef .tc main_v6)).trans (col2 m ρ c)
theorem col6 : W6 m ρ c (Proc.devRef .tc main_v6) = colOf (m ((c : Thread nD τ).loc main_arg1)) := (W6_of_ne m ρ c main_v6 (by decide)).trans (col5 m ρ c)
theorem col7 : W7 m ρ c (Proc.devRef .tc main_v6) = colOf (m ((c : Thread nD τ).loc main_arg1)) := (W7_of_ne m ρ c main_v6 (by decide)).trans (col6 m ρ c)

theorem a31 : W1 m ρ c (Proc.devRef .tc main_arg3) = m ((c : Thread nD τ).loc main_arg3) := a31_base m ρ c
theorem a32 : W2 m ρ c (Proc.devRef .tc main_arg3) = m ((c : Thread nD τ).loc main_arg3) := (W2_of_ne m ρ c main_arg3 (by decide)).trans (a31 m ρ c)

theorem a41 : W1 m ρ c (Proc.devRef .tc main_arg4) = m ((c : Thread nD τ).loc main_arg4) := a41_base m ρ c
theorem a42 : W2 m ρ c (Proc.devRef .tc main_arg4) = m ((c : Thread nD τ).loc main_arg4) := (W2_of_ne m ρ c main_arg4 (by decide)).trans (a41 m ρ c)
theorem a45 : W5 m ρ c (Proc.devRef .tc main_arg4) = m ((c : Thread nD τ).loc main_arg4) := (by dsimp only [W5, W4, W3, hostOps1, hostOps1_1, hostOps1_2]; after_results_simp : W5 m ρ c (Proc.devRef .tc main_arg4) = W2 m ρ c (Proc.devRef .tc main_arg4)).trans (a42 m ρ c)
theorem a46 : W6 m ρ c (Proc.devRef .tc main_arg4) = m ((c : Thread nD τ).loc main_arg4) := (W6_of_ne m ρ c main_arg4 (by decide)).trans (a45 m ρ c)

theorem a51 : W1 m ρ c (Proc.devRef .tc main_arg5) = m ((c : Thread nD τ).loc main_arg5) := a51_base m ρ c
theorem a52 : W2 m ρ c (Proc.devRef .tc main_arg5) = m ((c : Thread nD τ).loc main_arg5) := (W2_of_ne m ρ c main_arg5 (by decide)).trans (a51 m ρ c)
theorem a55 : W5 m ρ c (Proc.devRef .tc main_arg5) = m ((c : Thread nD τ).loc main_arg5) := (by dsimp only [W5, W4, W3, hostOps1, hostOps1_1, hostOps1_2]; after_results_simp : W5 m ρ c (Proc.devRef .tc main_arg5) = W2 m ρ c (Proc.devRef .tc main_arg5)).trans (a52 m ρ c)
theorem a56 : W6 m ρ c (Proc.devRef .tc main_arg5) = m ((c : Thread nD τ).loc main_arg5) := (W6_of_ne m ρ c main_arg5 (by decide)).trans (a55 m ρ c)
theorem a57 : W7 m ρ c (Proc.devRef .tc main_arg5) = m ((c : Thread nD τ).loc main_arg5) := (W7_of_ne m ρ c main_arg5 (by decide)).trans (a56 m ρ c)

/-! ## Region 0: the first product -/

theorem lin1_2 : W2 m ρ c (Proc.devRef .tc main_v7) = lin1 (m ((c : Thread nD τ).loc main_arg0)) (m ((c : Thread nD τ).loc main_arg2)) := by
  refine (W2_arr m ρ c 2).trans ((Cert.KernelIdeal.Region0.array_eq (V1 m ρ) c).trans ?_)
  show lin1 (W1 m ρ c (Proc.devRef .tc main_arg0)) (W1 m ρ c (Proc.devRef .tc main_arg2)) = _
  rw [a01_base m ρ c, a21_base m ρ c]

/-! ## The second host stretch: the first aggregation, and the bias as one row -/

theorem agg5 : W5 m ρ c (Proc.devRef .tc main_v43) = agg64 (lin1 (m ((c : Thread nD τ).loc main_arg0)) (m ((c : Thread nD τ).loc main_arg2))) (rowOf (m ((c : Thread nD τ).loc main_arg1))) (colOf (m ((c : Thread nD τ).loc main_arg1))) := by
  have h : W5 m ρ c (Proc.devRef .tc main_v43) = agg64 (W2 m ρ c (Proc.devRef .tc main_v7)) (W2 m ρ c (Proc.devRef .tc main_v3)) (W2 m ρ c (Proc.devRef .tc main_v6)) := by
    dsimp only [W5, W4, W3, hostOps1, hostOps1_1, hostOps1_2]; after_results_simp
    simp only [Cert.LibTRef.ofBuf_toBuf]
    have e1 : ∀ X : main_v13.ty.Contents (Elt Ideal), (TRef.of (T := ⟨S100000, .i1⟩) main_v13).ofBuf X = X := fun X => rfl
    have e2 : ∀ X : main_v14.ty.Contents (Elt Ideal), (TRef.of (T := ⟨S100000, .f32⟩) main_v14).ofBuf X = X := fun X => rfl
    have e3 : ∀ X : (⟨S100000, .f32⟩ : BufTy).Contents (Elt Ideal), (TRef.of (T := ⟨S100000, .f32⟩) main_v15).toBuf X = X := fun X => rfl
    have e4 : ∀ X : main_cst_2.ty.Contents (Elt Ideal), (TRef.of (T := ⟨S_, .f32⟩) main_cst_2).ofBuf X = X := fun X => rfl
    simp only [e1, e2, e3, e4, id]
    rfl
  rw [h, lin1_2 m ρ c, row2 m ρ c, col2 m ρ c]

theorem bias5 (q : Fin 64) : V5 m ρ c main_v44 (ix2 (0 : Fin 1) q) = (m ((c : Thread nD τ).loc main_arg3)) (ix1 q) := by
  have h : (W5 m ρ c (Proc.devRef .tc main_v44)) (ix2 (0 : Fin 1) q) = (W2 m ρ c (Proc.devRef .tc main_arg3)) (ix1 q) := by
    dsimp only [W5, W4, W3, hostOps1, hostOps1_1, hostOps1_2]; after_results_simp
    exact shapeCast_a_1a_apply _ _ (0 : Fin 1) q
  exact h.trans (by rw [a32 m ρ c])

/-! ## Region 1: the bias and the threshold -/

theorem relu6 : W6 m ρ c (Proc.devRef .tc main_v45) = biasRelu (agg64 (lin1 (m ((c : Thread nD τ).loc main_arg0)) (m ((c : Thread nD τ).loc main_arg2))) (rowOf (m ((c : Thread nD τ).loc main_arg1))) (colOf (m ((c : Thread nD τ).loc main_arg1)))) (m ((c : Thread nD τ).loc main_arg3)) := by
  refine (W6_arr m ρ c 2).trans ((Cert.KernelIdeal.Region1.array_eq (V5 m ρ) c (m ((c : Thread nD τ).loc main_arg3)) (bias5 m ρ c)).trans ?_)
  show biasRelu (W5 m ρ c (Proc.devRef .tc main_v43)) _ = _
  rw [agg5 m ρ c]

/-! ## Region 2: the second product -/

theorem lin2_7 : W7 m ρ c (Proc.devRef .tc main_v46) = lin2 (biasRelu (agg64 (lin1 (m ((c : Thread nD τ).loc main_arg0)) (m ((c : Thread nD τ).loc main_arg2))) (rowOf (m ((c : Thread nD τ).loc main_arg1))) (colOf (m ((c : Thread nD τ).loc main_arg1)))) (m ((c : Thread nD τ).loc main_arg3))) (m ((c : Thread nD τ).loc main_arg4)) := by
  refine (W7_arr m ρ c 2).trans ((Cert.KernelIdeal.Region2.array_eq (V6 m ρ) c).trans ?_)
  show lin2 (W6 m ρ c (Proc.devRef .tc main_v45)) (W6 m ρ c (Proc.devRef .tc main_arg4)) = _
  rw [relu6 m ρ c, a46 m ρ c]

/-! ## The third host stretch: the second aggregation, and the bias as one row -/

theorem agg10 : W10 m ρ c (Proc.devRef .tc main_v82) = agg16 (lin2 (biasRelu (agg64 (lin1 (m ((c : Thread nD τ).loc main_arg0)) (m ((c : Thread nD τ).loc main_arg2))) (rowOf (m ((c : Thread nD τ).loc main_arg1))) (colOf (m ((c : Thread nD τ).loc main_arg1)))) (m ((c : Thread nD τ).loc main_arg3))) (m ((c : Thread nD τ).loc main_arg4))) (rowOf (m ((c : Thread nD τ).loc main_arg1))) (colOf (m ((c : Thread nD τ).loc main_arg1))) := by
  have h : W10 m ρ c (Proc.devRef .tc main_v82) = agg16 (W7 m ρ c (Proc.devRef .tc main_v46)) (W7 m ρ c (Proc.devRef .tc main_v3)) (W7 m ρ c (Proc.devRef .tc main_v6)) := by
    dsimp only [W10, W9, W8, hostOps3, hostOps3_1, hostOps3_2]; after_results_simp
    simp only [Cert.LibTRef.ofBuf_toBuf]
    have e1 : ∀ X : main_v52.ty.Contents (Elt Ideal), (TRef.of (T := ⟨S100000, .i1⟩) main_v52).ofBuf X = X := fun X => rfl
    have e2 : ∀ X : main_v53.ty.Contents (Elt Ideal), (TRef.of (T := ⟨S100000, .f32⟩) main_v53).ofBuf X = X := fun X => rfl
    have e3 : ∀ X : (⟨S100000, .f32⟩ : BufTy).Contents (Elt Ideal), (TRef.of (T := ⟨S100000, .f32⟩) main_v54).toBuf X = X := fun X => rfl
    have e4 : ∀ X : main_cst_12.ty.Contents (Elt Ideal), (TRef.of (T := ⟨S_, .f32⟩) main_cst_12).ofBuf X = X := fun X => rfl
    simp only [e1, e2, e3, e4, id]
    rfl
  rw [h, lin2_7 m ρ c, row7 m ρ c, col7 m ρ c]

theorem bias10 (q : Fin 16) : V10 m ρ c main_v83 (ix2 (0 : Fin 1) q) = (m ((c : Thread nD τ).loc main_arg5)) (ix1 q) := by
  have h : (W10 m ρ c (Proc.devRef .tc main_v83)) (ix2 (0 : Fin 1) q) = (W7 m ρ c (Proc.devRef .tc main_arg5)) (ix1 q) := by
    dsimp only [W10, W9, W8, hostOps3, hostOps3_1, hostOps3_2]; after_results_simp
    exact shapeCast_a_1a_apply _ _ (0 : Fin 1) q
  exact h.trans (by rw [a57 m ρ c])

/-! ## Region 3: the bias and the row-wise log-softmax -/

/-- The result buffer at the last boundary holds the network's function of the six arguments as launched. -/
theorem result_eq : W11 m ρ c (Proc.devRef .tc main_v84)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 2).trans ((Cert.KernelIdeal.Region3.array_eq (V10 m ρ) c (m ((c : Thread nD τ).loc main_arg5)) (bias10 m ρ c)).trans ?_)
  show biasLogSoftmax (W10 m ρ c (Proc.devRef .tc main_v82)) _ = _
  rw [agg10 m ρ c]
  rfl

end Cert.KernelIdeal.KernelValue

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefRun.lean ====
/-
  The reference's run, read stretch by stretch.

  The reference is a straight line of host operations. Cut into seven stretches it reads: the extended edge list;
  the first product; the first aggregation; the first bias and `max(·, 0)`; the second product; the second
  aggregation; the second bias and the row-wise log-softmax. What a buffer holds after a stretch is a fold of the
  stretch's operations over the contents before it, so each stretch is read on its own, from arbitrary contents: the
  buffer it is run for holds the stage's function (Spec) of the buffers it reads, and a buffer it does not write keeps
  its contents. Chained, the result buffer after the whole line holds `gcn` of the six arguments.
-/
import proofs.«176012_j64836826300768_1_alg».proof.Proof.Gen.ReferenceIdeal
import proofs.«176012_j64836826300768_1_alg».proof.Proof.Spec
import proofs.«176012_j64836826300768_1_alg».proof.Proof.LibAfter
import proofs.«176012_j64836826300768_1_alg».proof.Proof.LibTRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gcn

variable {F : FTy → Type} [FloatOps F]

/-- The extended edge list: the node numbers, the two rows of the edge list, each followed by every node once. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The buffers the stretch writes. -/
abbrev opsA_W : List (Ref sig .tc) := [main_v0, main_v1, main_v2, main_v3, main_v4, main_v5, main_v6]
theorem opsA_writes : (opsA : List (HloOp τ sig (Elt F))).Forall fun op => op.writes ⊆ (opsA_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
/-- A buffer the stretch does not write keeps its contents. -/
theorem keepA (V : Valuation τ sig (Elt F)) {r : Ref sig .tc} (h : r ∉ opsA_W) :
    after opsA V (Proc.devRef .tc r) = V (Proc.devRef .tc r) :=
  after_of_writes_sub opsA V opsA_writes h

/-- The first layer's product. -/
abbrev opsB : List (HloOp τ sig (Elt F)) :=
  [ binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- The buffers the stretch writes. -/
abbrev opsB_W : List (Ref sig .tc) := [main_v7]
theorem opsB_writes : (opsB : List (HloOp τ sig (Elt F))).Forall fun op => op.writes ⊆ (opsB_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsB_sub : (opsB : List (HloOp τ sig (Elt F))).Forall fun op => op.bufs ⊆ tcRefs τ sig :=
  binary_bufs_sub ..
/-- A buffer the stretch does not write keeps its contents. -/
theorem keepB (V : Valuation τ sig (Elt F)) {r : Ref sig .tc} (h : r ∉ opsB_W) :
    after opsB V (Proc.devRef .tc r) = V (Proc.devRef .tc r) :=
  after_of_writes_sub opsB V opsB_writes h

/-- The first aggregation: degrees, their inverse square roots, the edge weights, the gathered rows scaled and summed at their targets. -/
abbrev opsC : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
/-- The buffers the stretch writes. -/
abbrev opsC_W : List (Ref sig .tc) := [main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43]
theorem opsC_writes : (opsC : List (HloOp τ sig (Elt F))).Forall fun op => op.writes ⊆ (opsC_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsC_sub : (opsC : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
/-- A buffer the stretch does not write keeps its contents. -/
theorem keepC (V : Valuation τ sig (Elt F)) {r : Ref sig .tc} (h : r ∉ opsC_W) :
    after opsC V (Proc.devRef .tc r) = V (Proc.devRef .tc r) :=
  after_of_writes_sub opsC V opsC_writes h

/-- The first bias and `max(·, 0)`. -/
abbrev opsD : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]
/-- The buffers the stretch writes. -/
abbrev opsD_W : List (Ref sig .tc) := [main_v44, main_v45, main_v46, main_call1_cst, main_call1_v0, main_v47]
theorem opsD_writes : (opsD : List (HloOp τ sig (Elt F))).Forall fun op => op.writes ⊆ (opsD_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub ..⟩
/-- A buffer the stretch does not write keeps its contents. -/
theorem keepD (V : Valuation τ sig (Elt F)) {r : Ref sig .tc} (h : r ∉ opsD_W) :
    after opsD V (Proc.devRef .tc r) = V (Proc.devRef .tc r) :=
  after_of_writes_sub opsD V opsD_writes h

/-- The second layer's product. -/
abbrev opsE : List (HloOp τ sig (Elt F)) :=
  [ binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]
/-- The buffers the stretch writes. -/
abbrev opsE_W : List (Ref sig .tc) := [main_v48]
theorem opsE_writes : (opsE : List (HloOp τ sig (Elt F))).Forall fun op => op.writes ⊆ (opsE_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsE_sub : (opsE : List (HloOp τ sig (Elt F))).Forall fun op => op.bufs ⊆ tcRefs τ sig :=
  binary_bufs_sub ..
/-- A buffer the stretch does not write keeps its contents. -/
theorem keepE (V : Valuation τ sig (Elt F)) {r : Ref sig .tc} (h : r ∉ opsE_W) :
    after opsE V (Proc.devRef .tc r) = V (Proc.devRef .tc r) :=
  after_of_writes_sub opsE V opsE_writes h

/-- The second aggregation. -/
abbrev opsG : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x16 ![0, 1] bcast_S1700000x1_S1700000x16_0_1 : (⟨S1700000x1, .f32⟩ : BufTy).Contents (Elt F) → (⟨S1700000x16, .f32⟩ : BufTy).Contents (Elt F)),
    binary main_v78 main_v80 main_v81 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v82 (broadcastInDim S100000x16 ![] bcast_S_S100000x16 : (⟨S_, .f32⟩ : BufTy).Contents (Elt F) → (⟨S100000x16, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]
/-- The buffers the stretch writes. -/
abbrev opsG_W : List (Ref sig .tc) := [main_cst_9, main_v49, main_cst_10, main_v50, main_v51, main_v52, main_cst_11, main_v53, main_v54, main_v55, main_cst_12, main_call2_v0, main_call2_v1, main_v56, main_c_13, main_v57, main_v58, main_c_14, main_v59, main_v60, main_v61, main_v62, main_v63, main_c_15, main_v64, main_v65, main_c_16, main_v66, main_v67, main_v68, main_v69, main_v70, main_v71, main_c_17, main_v72, main_v73, main_c_18, main_v74, main_v75, main_v76, main_v77, main_v78, main_v79, main_v80, main_v81, main_cst_19, main_v82, main_v83, main_v84]
theorem opsG_writes : (opsG : List (HloOp τ sig (Elt F))).Forall fun op => op.writes ⊆ (opsG_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsG_sub : (opsG : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
/-- A buffer the stretch does not write keeps its contents. -/
theorem keepG (V : Valuation τ sig (Elt F)) {r : Ref sig .tc} (h : r ∉ opsG_W) :
    after opsG V (Proc.devRef .tc r) = V (Proc.devRef .tc r) :=
  after_of_writes_sub opsG V opsG_writes h

/-- The second bias and the row-wise log-softmax. -/
abbrev opsH : List (HloOp τ sig (Elt F)) :=
  [ unary main_arg5 main_v85 (broadcastInDim S1x16 ![1] bcast_S16_S1x16_1 : (⟨S16, .f32⟩ : BufTy).Contents (Elt F) → (⟨S1x16, .f32⟩ : BufTy).Contents (Elt F)),
    unary main_v85 main_v86 (broadcastInDim S100000x16 ![0, 1] bcast_S1x16_S100000x16_0_1 : (⟨S1x16, .f32⟩ : BufTy).Contents (Elt F) → (⟨S100000x16, .f32⟩ : BufTy).Contents (Elt F)),
    binary main_v84 main_v86 main_v87 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v87) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v87) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v88) subf ]
/-- The buffers the stretch writes. -/
abbrev opsH_W : List (Ref sig .tc) := [main_v85, main_v86, main_v87, main_call3_cst, main_call3_v0, main_call3_cst_0, main_call3_v1, main_call3_v2, main_call3_v3, main_call3_v4, main_call3_v5, main_call3_v6, main_call3_cst_1, main_call3_v7, main_call3_v8, main_call3_v9, main_call3_v10, main_v88]
theorem opsH_writes : (opsH : List (HloOp τ sig (Elt F))).Forall fun op => op.writes ⊆ (opsH_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem ?_; decide)
theorem opsH_sub : (opsH : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
/-- A buffer the stretch does not write keeps its contents. -/
theorem keepH (V : Valuation τ sig (Elt F)) {r : Ref sig .tc} (h : r ∉ opsH_W) :
    after opsH V (Proc.devRef .tc r) = V (Proc.devRef .tc r) :=
  after_of_writes_sub opsH V opsH_writes h

/-! ## What each stretch computes -/

theorem rowA (V : Valuation τ sig (Elt F)) :
    after opsA V (Proc.devRef .tc main_v3) = rowOf (V (Proc.devRef .tc main_arg1)) := by
  dsimp only [opsA]; after_results; rfl
theorem colA (V : Valuation τ sig (Elt F)) :
    after opsA V (Proc.devRef .tc main_v6) = colOf (V (Proc.devRef .tc main_arg1)) := by
  dsimp only [opsA]; after_results; rfl
theorem valB (V : Valuation τ sig (Elt F)) :
    after opsB V (Proc.devRef .tc main_v7) = lin1 (V (Proc.devRef .tc main_arg0)) (V (Proc.devRef .tc main_arg2)) := by
  dsimp only [opsB]; after_results; rfl
set_option maxRecDepth 8192 in
theorem valC (V : Valuation τ sig (Elt F)) :
    after opsC V (Proc.devRef .tc main_v43)
      = agg64 (V (Proc.devRef .tc main_v7)) (V (Proc.devRef .tc main_v3)) (V (Proc.devRef .tc main_v6)) := by
  dsimp only [opsC]; after_results_simp; rfl
theorem valD (V : Valuation τ sig (Elt F)) :
    after opsD V (Proc.devRef .tc main_v47) = biasRelu (V (Proc.devRef .tc main_v43)) (V (Proc.devRef .tc main_arg3)) := by
  dsimp only [opsD]; after_results; rfl
theorem valE (V : Valuation τ sig (Elt F)) :
    after opsE V (Proc.devRef .tc main_v48) = lin2 (V (Proc.devRef .tc main_v47)) (V (Proc.devRef .tc main_arg4)) := by
  dsimp only [opsE]; after_results; rfl
set_option maxRecDepth 8192 in
theorem valG (V : Valuation τ sig (Elt F)) :
    after opsG V (Proc.devRef .tc main_v84)
      = agg16 (V (Proc.devRef .tc main_v48)) (V (Proc.devRef .tc main_v3)) (V (Proc.devRef .tc main_v6)) := by
  dsimp only [opsG]; after_results_simp; rfl
set_option maxRecDepth 16384 in
theorem valH (V : Valuation τ sig (Elt F)) :
    after opsH V (Proc.devRef .tc main_v88)
      = biasLogSoftmax (V (Proc.devRef .tc main_v84)) (V (Proc.devRef .tc main_arg5)) := by
  dsimp only [opsH]; after_results_simp
  simp only [Cert.LibTRef.ofBuf_toBuf]
  have e87 : ∀ X : main_v87.ty.Contents (Elt F), (TRef.of (T := ⟨S100000x16, .f32⟩) main_v87).ofBuf X = X := fun X => rfl
  have e88 : ∀ X : (⟨S100000x16, .f32⟩ : BufTy).Contents (Elt F), (TRef.of (T := ⟨S100000x16, .f32⟩) main_v88).toBuf X = X := fun X => rfl
  simp only [e87, e88]
  rfl

/-! ## The whole line -/

/-- The reference's operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x16 ![0, 1] bcast_S1700000x1_S1700000x16_0_1 : (⟨S1700000x1, .f32⟩ : BufTy).Contents (Elt F) → (⟨S1700000x16, .f32⟩ : BufTy).Contents (Elt F)),
    binary main_v78 main_v80 main_v81 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v82 (broadcastInDim S100000x16 ![] bcast_S_S100000x16 : (⟨S_, .f32⟩ : BufTy).Contents (Elt F) → (⟨S100000x16, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v85 (broadcastInDim S1x16 ![1] bcast_S16_S1x16_1 : (⟨S16, .f32⟩ : BufTy).Contents (Elt F) → (⟨S1x16, .f32⟩ : BufTy).Contents (Elt F)),
    unary main_v85 main_v86 (broadcastInDim S100000x16 ![0, 1] bcast_S1x16_S100000x16_0_1 : (⟨S1x16, .f32⟩ : BufTy).Contents (Elt F) → (⟨S100000x16, .f32⟩ : BufTy).Contents (Elt F)),
    binary main_v84 main_v86 main_v87 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v87) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v87) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v88) subf ]

/-- The line is its seven stretches one after the other. -/
theorem ops_eq : (ops : List (HloOp τ sig (Elt F))) = opsA ++ (opsB ++ (opsC ++ (opsD ++ (opsE ++ (opsG ++ opsH))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- After the whole line the result buffer holds the network's function of the six argument buffers' contents. -/
theorem result_eq (V : Valuation τ sig (Elt F)) :
    after ops V (Proc.devRef .tc main_v88)
      = gcn (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq]; simp only [Cert.LibAfter.after_append]
  rw [valH, valG, keepG _ (r := main_arg5) (by decide),
    valE, keepE _ (r := main_v3) (by decide), keepE _ (r := main_v6) (by decide), keepE _ (r := main_arg5) (by decide),
    valD, keepD _ (r := main_v3) (by decide), keepD _ (r := main_v6) (by decide), keepD _ (r := main_arg4) (by decide),
    keepD _ (r := main_arg5) (by decide),
    valC, keepC _ (r := main_v3) (by decide), keepC _ (r := main_v6) (by decide), keepC _ (r := main_arg3) (by decide),
    keepC _ (r := main_arg4) (by decide), keepC _ (r := main_arg5) (by decide),
    valB, keepB _ (r := main_v3) (by decide), keepB _ (r := main_v6) (by decide), keepB _ (r := main_arg3) (by decide),
    keepB _ (r := main_arg4) (by decide), keepB _ (r := main_arg5) (by decide),
    rowA, colA, keepA _ (r := main_arg0) (by decide), keepA _ (r := main_arg2) (by decide), keepA _ (r := main_arg3) (by decide),
    keepA _ (r := main_arg4) (by decide), keepA _ (r := main_arg5) (by decide)]
  rfl

/-- No operation of the line writes an argument buffer. -/
theorem kept (V : Valuation τ sig (Elt F)) {r : Ref sig .tc}
    (hA : r ∉ opsA_W) (hB : r ∉ opsB_W) (hC : r ∉ opsC_W) (hD : r ∉ opsD_W) (hE : r ∉ opsE_W) (hG : r ∉ opsG_W) (hH : r ∉ opsH_W) :
    after ops V (Proc.devRef .tc r) = V (Proc.devRef .tc r) := by
  rw [ops_eq]; simp only [Cert.LibAfter.after_append]
  rw [keepH _ hH, keepG _ hG, keepE _ hE, keepD _ hD, keepC _ hC, keepB _ hB, keepA _ hA]

/-- Every weakly fair execution of the reference terminates without a fault, the result at the network's function
    of the arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
        = gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq _),
      (h c main_arg0).trans (kept _ (by decide) (by decide) (by decide) (by decide) (by decide) (by decide) (by decide)),
      (h c main_arg1).trans (kept _ (by decide) (by decide) (by decide) (by decide) (by decide) (by decide) (by decide)),
      (h c main_arg2).trans (kept _ (by decide) (by decide) (by decide) (by decide) (by decide) (by decide) (by decide)),
      (h c main_arg3).trans (kept _ (by decide) (by decide) (by decide) (by decide) (by decide) (by decide) (by decide)),
      (h c main_arg4).trans (kept _ (by decide) (by decide) (by decide) (by decide) (by decide) (by decide) (by decide)),
      (h c main_arg5).trans (kept _ (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.lean ====
/-
  The certificate of a two-layer graph convolution with a row-wise log-softmax, computed by four pipelined kernels
  among host gathers and scatters, against the same network written as host operations only.

  Both programs build the same extended edge list, the same degrees and edge weights, and aggregate with the same
  host operations; they differ only in the dense stages. There the kernel works on slabs of 10000 rows: a product
  with the operands rounded to a shorter float format (the identity at the exact values) and summed into a zero
  accumulator against the host's one product; a bias row added and a threshold at zero; and a row-wise log-softmax
  whose row maximum and row sum are lane reductions against the host's reductions (the host takes one more maximum
  against −∞ and starts its sum at 0, which changes nothing). Entry by entry the two sides are the same sums, maxima,
  exponentials and logarithms of the same extended reals, so no finiteness of the inputs is used.

  The three frames are the generated ones (the reference's is its run with the result dropped); the idealization
  rewrote nothing, so `preserves` is trivial; `algebraic` puts the kernel's run (its result buffer at the last
  boundary's contents, read back to the network's function of the arguments) beside the reference's run (read stretch
  by stretch to the same function).
-/
import proofs.«176012_j64836826300768_1_alg».proof.Defs
import proofs.«176012_j64836826300768_1_alg».proof.Proof.Gen.Kernel
import proofs.«176012_j64836826300768_1_alg».proof.Proof.Gen.Kernel.Frame
import proofs.«176012_j64836826300768_1_alg».proof.Proof.Gen.KernelIdeal
import proofs.«176012_j64836826300768_1_alg».proof.Proof.Gen.KernelIdeal.Frame
import proofs.«176012_j64836826300768_1_alg».proof.Proof.Gen.ReferenceIdeal
import proofs.«176012_j64836826300768_1_alg».proof.Proof.Gen.Pre_finite_inputs
import proofs.«176012_j64836826300768_1_alg».proof.Proof.RunValue
import proofs.«176012_j64836826300768_1_alg».proof.Proof.KernelValue
import proofs.«176012_j64836826300768_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the six arguments both programs end with the result array at the network's function
    of those arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
